-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S2x256x8 : Shape := ⟨3, ![2, 256, 8]⟩
abbrev S4096x1 : Shape := ⟨2, ![4096, 1]⟩
abbrev S4096x512x2 : Shape := ⟨3, ![4096, 512, 2]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2x256x8 : S_.BroadcastsInDim S2x256x8 (![] : Fin 0 → Fin S2x256x8.rank)
  reducesTo_S2x256x8_S_d0_1_2 : S2x256x8.ReducesTo [0, 1, 2] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4x2048x4096 .f32) (main_arg1 : FVec F S2x256x8 .f32) (main_arg2 : FVec F S4096x1 .f32) (main_arg3 : IVec S4096x512x2 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x8 .f32 := Host.absf main_arg1
  let main_cst_0 : FVec F S_ .f32 := constant S_ .f32 0x7F800000#32
  let main_v5 : FVec F S2x256x8 .f32 := broadcastInDim S2x256x8 ![] bcast_S_S2x256x8 main_cst_0
  let main_v6 : IVec S2x256x8 1 := cmpf .olt main_v4 main_v5
  let main_c_1 : IVec S_ 1 := constantI S_ 1 1#1
  let main_v7 : IVec S_ 1 := (fun x v => Host.reduce IntOp.andi x v reducesTo_S2x256x8_S_d0_1_2 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S4x2048x4096 : Shape := ⟨3, ![4, 2048, 4096]⟩
abbrev S2x256x8 : Shape := ⟨3, ![2, 256, 8]⟩
abbrev S4096x1 : Shape := ⟨2, ![4096, 1]⟩
abbrev S4096x512x2 : Shape := ⟨3, ![4096, 512, 2]⟩
abbrev S1x256x8 : Shape := ⟨3, ![1, 256, 8]⟩
abbrev S256x8 : Shape := ⟨2, ![256, 8]⟩
abbrev S4096x512x1 : Shape := ⟨3, ![4096, 512, 1]⟩
abbrev S4096x512 : Shape := ⟨2, ![4096, 512]⟩
abbrev S_ : Shape := ⟨0, ![]⟩
abbrev S4096x512x8 : Shape := ⟨3, ![4096, 512, 8]⟩
abbrev S4096x4096 : Shape := ⟨2, ![4096, 4096]⟩
abbrev S8192x4096 : Shape := ⟨2, ![8192, 4096]⟩
abbrev S1024x1024 : Shape := ⟨2, ![1024, 1024]⟩

abbrev nBuf : Space → Nat
  | .hbm => 39
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S2x256x8, .f32⟩
  | .hbm, ⟨2, _⟩ => ⟨S4096x1, .f32⟩
  | .hbm, ⟨3, _⟩ => ⟨S4096x512x2, .i32⟩
  | .hbm, ⟨4, _⟩ => ⟨S1x256x8, .f32⟩
  | .hbm, ⟨5, _⟩ => ⟨S256x8, .f32⟩
  | .hbm, ⟨6, _⟩ => ⟨S4096x512x1, .i32⟩
  | .hbm, ⟨7, _⟩ => ⟨S4096x512, .i32⟩
  | .hbm, ⟨8, _⟩ => ⟨S_, .i32⟩
  | .hbm, ⟨9, _⟩ => ⟨S4096x512, .i32⟩
  | .hbm, ⟨10, _⟩ => ⟨S4096x512, .i1⟩
  | .hbm, ⟨11, _⟩ => ⟨S_, .i32⟩
  | .hbm, ⟨12, _⟩ => ⟨S4096x512, .i32⟩
  | .hbm, ⟨13, _⟩ => ⟨S4096x512, .i32⟩
  | .hbm, ⟨14, _⟩ => ⟨S4096x512, .i32⟩
  | .hbm, ⟨15, _⟩ => ⟨S4096x512x1, .i32⟩
  | .hbm, ⟨16, _⟩ => ⟨S4096x512x8, .f32⟩
  | .hbm, ⟨17, _⟩ => ⟨S1x256x8, .f32⟩
  | .hbm, ⟨18, _⟩ => ⟨S256x8, .f32⟩
  | .hbm, ⟨19, _⟩ => ⟨S4096x512x1, .i32⟩
  | .hbm, ⟨20, _⟩ => ⟨S4096x512, .i32⟩
  | .hbm, ⟨21, _⟩ => ⟨S_, .i32⟩
  | .hbm, ⟨22, _⟩ => ⟨S4096x512, .i32⟩
  | .hbm, ⟨23, _⟩ => ⟨S4096x512, .i1⟩
  | .hbm, ⟨24, _⟩ => ⟨S_, .i32⟩
  | .hbm, ⟨25, _⟩ => ⟨S4096x512, .i32⟩
  | .hbm, ⟨26, _⟩ => ⟨S4096x512, .i32⟩
  | .hbm, ⟨27, _⟩ => ⟨S4096x512, .i32⟩
  | .hbm, ⟨28, _⟩ => ⟨S4096x512x1, .i32⟩
  | .hbm, ⟨29, _⟩ => ⟨S4096x512x8, .f32⟩
  | .hbm, ⟨30, _⟩ => ⟨S4096x512x8, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S8192x4096, .f32⟩
  | .hbm, ⟨35, _⟩ => ⟨S8192x4096, .bf16⟩
  | .hbm, ⟨36, _⟩ => ⟨S4096x4096, .bf16⟩
  | .hbm, ⟨37, _⟩ => ⟨S8192x4096, .f32⟩
  | .hbm, ⟨38, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S2x256x8_S1x256x8_0_0_0 : S2x256x8.Slices ![0, 0, 0] S1x256x8
  shapeCasts_S1x256x8_S256x8 : S1x256x8.ShapeCasts S256x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  slices_S2x256x8_S1x256x8_1_0_0 : S2x256x8.Slices ![1, 0, 0] S1x256x8
  slices_S4096x512x2_S4096x512x1_0_0_1 : S4096x512x2.Slices ![0, 0, 1] S4096x512x1
  shapeCasts_S4096x512x8_S4096x4096 : S4096x512x8.ShapeCasts S4096x4096
  bcast_S4096x1_S4096x4096_0_1 : S4096x1.BroadcastsInDim S4096x4096 (![0, 1] : Fin 2 → Fin S4096x4096.rank)
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  gather_S256x8_S4096x512x1_S4096x512x8_2_0_n_n_0_2_18_wf : GatherDims.WF S256x8 S4096x512x1 S4096x512x8 [2] [0] [] [0] [] 2 ![1, 8]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def gather_S256x8_S4096x512x1_S4096x512x8_2_0_n_n_0_2_18 : GatherDims S256x8 S4096x512x1 S4096x512x8 where
  offsetDims := [2]
  collapsedSliceDims := [0]
  operandBatchingDims := []
  startIndicesBatchingDims := []
  startIndexMap := [0]
  indexVectorDim := 2
  sliceSizes := ![1, 8]
  wf := gather_S256x8_S4096x512x1_S4096x512x8_2_0_n_n_0_2_18_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v27) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S2x256x8 : Shape := ⟨3, ![2, 256, 8]⟩
abbrev S4096x1 : Shape := ⟨2, ![4096, 1]⟩
abbrev S4096x512x2 : Shape := ⟨3, ![4096, 512, 2]⟩
abbrev S1x256x8 : Shape := ⟨3, ![1, 256, 8]⟩
abbrev S256x8 : Shape := ⟨2, ![256, 8]⟩
abbrev S4096x512x1 : Shape := ⟨3, ![4096, 512, 1]⟩
abbrev S4096x512 : Shape := ⟨2, ![4096, 512]⟩
abbrev S_ : Shape := ⟨0, ![]⟩
abbrev S4096x512x8 : Shape := ⟨3, ![4096, 512, 8]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x256x8, .f32⟩
  | .hbm, ⟨2, _⟩ => ⟨S4096x1, .f32⟩
  | .hbm, ⟨3, _⟩ => ⟨S4096x512x2, .i32⟩
  | .hbm, ⟨4, _⟩ => ⟨S1x256x8, .f32⟩
  | .hbm, ⟨5, _⟩ => ⟨S256x8, .f32⟩
  | .hbm, ⟨6, _⟩ => ⟨S4096x512x1, .i32⟩
  | .hbm, ⟨7, _⟩ => ⟨S4096x512, .i32⟩
  | .hbm, ⟨8, _⟩ => ⟨S_, .i32⟩
  | .hbm, ⟨9, _⟩ => ⟨S4096x512, .i32⟩
  | .hbm, ⟨10, _⟩ => ⟨S4096x512, .i1⟩
  | .hbm, ⟨11, _⟩ => ⟨S_, .i32⟩
  | .hbm, ⟨12, _⟩ => ⟨S4096x512, .i32⟩
  | .hbm, ⟨13, _⟩ => ⟨S4096x512, .i32⟩
  | .hbm, ⟨14, _⟩ => ⟨S4096x512, .i32⟩
  | .hbm, ⟨15, _⟩ => ⟨S4096x512x1, .i32⟩
  | .hbm, ⟨16, _⟩ => ⟨S4096x512x8, .f32⟩
  | .hbm, ⟨17, _⟩ => ⟨S1x256x8, .f32⟩
  | .hbm, ⟨18, _⟩ => ⟨S256x8, .f32⟩
  | .hbm, ⟨19, _⟩ => ⟨S4096x512x1, .i32⟩
  | .hbm, ⟨20, _⟩ => ⟨S4096x512, .i32⟩
  | .hbm, ⟨21, _⟩ => ⟨S_, .i32⟩
  | .hbm, ⟨22, _⟩ => ⟨S4096x512, .i32⟩
  | .hbm, ⟨23, _⟩ => ⟨S4096x512, .i1⟩
  | .hbm, ⟨24, _⟩ => ⟨S_, .i32⟩
  | .hbm, ⟨25, _⟩ => ⟨S4096x512, .i32⟩
  | .hbm, ⟨26, _⟩ => ⟨S4096x512, .i32⟩
  | .hbm, ⟨27, _⟩ => ⟨S4096x512, .i32⟩
  | .hbm, ⟨28, _⟩ => ⟨S4096x512x1, .i32⟩
  | .hbm, ⟨29, _⟩ => ⟨S4096x512x8, .f32⟩
  | .hbm, ⟨30, _⟩ => ⟨S4096x512x8, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  slices_S2x256x8_S1x256x8_0_0_0 : S2x256x8.Slices ![0, 0, 0] S1x256x8
  shapeCasts_S1x256x8_S256x8 : S1x256x8.ShapeCasts S256x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  slices_S2x256x8_S1x256x8_1_0_0 : S2x256x8.Slices ![1, 0, 0] S1x256x8
  slices_S4096x512x2_S4096x512x1_0_0_1 : S4096x512x2.Slices ![0, 0, 1] S4096x512x1
  shapeCasts_S4096x512x8_S4096x4096 : S4096x512x8.ShapeCasts S4096x4096
  bcast_S4096x1_S4096x4096_0_1 : S4096x1.BroadcastsInDim S4096x4096 (![0, 1] : Fin 2 → Fin S4096x4096.rank)
  gather_S256x8_S4096x512x1_S4096x512x8_2_0_n_n_0_2_18_wf : GatherDims.WF S256x8 S4096x512x1 S4096x512x8 [2] [0] [] [0] [] 2 ![1, 8]
  dot_S4x2048x4096_S4096x4096_S4x2048x4096_2_1_01_0_n_n_wf : DotDims.WF S4x2048x4096 S4096x4096 S4x2048x4096 [2] [1] [0, 1] [0] [] []

variable [Facts₀]

def gather_S256x8_S4096x512x1_S4096x512x8_2_0_n_n_0_2_18 : GatherDims S256x8 S4096x512x1 S4096x512x8 where
  offsetDims := [2]
  collapsedSliceDims := [0]
  operandBatchingDims := []
  startIndicesBatchingDims := []
  startIndexMap := [0]
  indexVectorDim := 2
  sliceSizes := ![1, 8]
  wf := gather_S256x8_S4096x512x1_S4096x512x8_2_0_n_n_0_2_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, in each of its three control cases, as values. The scratch tile is the
  accumulator: at the first step of a contraction (case A) the body zeroes it, reads the zero back and stores
  `0 + a · bᵀ`; at a later step (cases B and C) it stores `acc + a · bᵀ` over the `acc` the step before left; at the
  last step (case C) it also copies the accumulator, as just stored, into the output tile. Every store covers its
  whole tile, so what a tile holds afterwards is the last store's value.
-/
import proofs.«117263_j15942918602789_1_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later step of a contraction: the accumulator ends at `acc + a · bᵀ`. -/
theorem sout_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- The last step of a contraction: the accumulator ends at `acc + a · bᵀ` … -/
theorem sout_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- … and the output tile receives a copy of it: the accumulator read back after that store. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

/-- The first step of a contraction: the accumulator is zeroed, the zero read back, and `0 + a · bᵀ` stored. -/
theorem sout_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Tile

end
-- ==== Proof.Blocks.lean ====
/-
  Where a tile sits. The grid point `t` (of 128, contraction step innermost) works on row block `t / 16` of the left
  operand, row block `t / 4 % 4` of the right operand, and column run `t % 4` of both; its output tile is the one at row
  block `t / 16`, column block `t / 4 % 4`. An entry of a tile is the array's entry at block index × 1024 + the entry's
  coordinate, on each axis.
-/
import proofs.«117263_j15942918602789_1_alg».proof.Proof.Gen.KernelIdeal.Frame
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The left and the right input tile of grid point `t`, as the region's windows read them. -/
abbrev lhsTile (c : Dev nD) (t : Fin cfg0.N) : FVec F S1024x1024 .bf16 := iblk m c 0 t
abbrev rhsTile (c : Dev nD) (t : Fin cfg0.N) : FVec F S1024x1024 .bf16 := iblk m c 1 t

/-- The three printed index maps in closed form, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The left tile at point `t`, entry (p, k): the left operand at row `(t / 16) · 1024 + p`, column `(t % 4) · 1024 + k`. -/
theorem lhsTile_apply (c : Dev nD) (t : Fin cfg0.N) (p k : Fin 1024) (r : Fin 8192) (col : Fin 4096)
    (hr : r.val = t.val / 16 * 1024 + p.val) (hc : col.val = t.val % 4 * 1024 + k.val) :
    lhsTile m c t (ix2 p k) = V m c main_v27 (ix2 r col) := by
  obtain ⟨e0, e1, -⟩ := idx_facts t
  unfold lhsTile iblk
  rw [View.read_apply]
  show V m c main_v27 (((cfg0.win 0).blk t).view.emb (ix2 p k)) = V m c main_v27 (ix2 r col)
  refine congrArg (V m c main_v27) (funext fun a => Fin.ext ?_)
  match a with
  | ⟨0, _⟩ => show win0_0.index t (0 : Fin 2) * 1024 + 1 * p.val = r.val; omega
  | ⟨1, _⟩ => show win0_0.index t (1 : Fin 2) * 1024 + 1 * k.val = col.val; omega

/-- The right tile at point `t`, entry (q, k): the right operand at row `(t / 4 % 4) · 1024 + q`, column `(t % 4) · 1024 + k`. -/
theorem rhsTile_apply (c : Dev nD) (t : Fin cfg0.N) (q k : Fin 1024) (r : Fin 4096) (col : Fin 4096)
    (hr : r.val = t.val / 4 % 4 * 1024 + q.val) (hc : col.val = t.val % 4 * 1024 + k.val) :
    rhsTile m c t (ix2 q k) = V m c main_v28 (ix2 r col) := by
  obtain ⟨-, -, e0, e1, -⟩ := idx_facts t
  unfold rhsTile iblk
  rw [View.read_apply]
  show V m c main_v28 (((cfg0.win 1).blk t).view.emb (ix2 q k)) = V m c main_v28 (ix2 r col)
  refine congrArg (V m c main_v28) (funext fun a => Fin.ext ?_)
  match a with
  | ⟨0, _⟩ => show win0_1.index t (0 : Fin 2) * 1024 + 1 * q.val = r.val; omega
  | ⟨1, _⟩ => show win0_1.index t (1 : Fin 2) * 1024 + 1 * k.val = col.val; omega

/-- The output tile at point `t`, entry (p, q), sits in the result at row `(t / 16) · 1024 + p`, column `(t / 4 % 4) · 1024 + q`. -/
theorem outTile_emb (t : Fin cfg0.N) (p q : Fin 1024) (r : Fin 8192) (col : Fin 4096)
    (hr : r.val = t.val / 16 * 1024 + p.val) (hc : col.val = t.val / 4 % 4 * 1024 + q.val) :
    ((cfg0.win 2).blk t).view.emb (ix2 p q) = ix2 r col := by
  obtain ⟨-, -, -, -, e0, e1⟩ := idx_facts t
  refine funext fun a => Fin.ext ?_
  match a with
  | ⟨0, _⟩ => show win0_2.index t (0 : Fin 2) * 1024 + 1 * p.val = r.val; omega
  | ⟨1, _⟩ => show win0_2.index t (1 : Fin 2) * 1024 + 1 * q.val = col.val; omega

end Cert.KernelIdeal.Tile

end
-- ==== Proof.Accum.lean ====
/-
  The accumulator across the grid. The grid's points are ordered with the contraction step innermost: the points
  4u, 4u+1, 4u+2, 4u+3 are the four steps of one output tile. Step 0 starts the accumulator at `0 + a₀ · b₀ᵀ`; each later
  step adds its own tile product onto what the step before left; step 3 also writes the accumulator to the output
  tile. So what is written back at point `t = 4u + 3` is the nest of four accumulating stores over the tiles of the
  points `t - 3`, `t - 2`, `t - 1`, `t`.
-/
import proofs.«117263_j15942918602789_1_alg».proof.Proof.Pieces
import proofs.«117263_j15942918602789_1_alg».proof.Proof.Blocks

noncomputable section

namespace Cert.KernelIdeal.Tile

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The components of a pair known by an equation. -/
theorem fst_of_eq {α β : Type} {x : α × β} {a : α} {b : β} (h : x = (a, b)) : x.1 = a := by rw [h]
theorem snd_of_eq {α β : Type} {x : α × β} {a : α} {b : β} (h : x = (a, b)) : x.2 = b := by rw [h]

/-- The point before `t` (point 0 is its own). -/
abbrev prev (t : Fin cfg0.N) : Fin cfg0.N := ⟨t.val - 1, Nat.lt_of_le_of_lt (Nat.sub_le _ _) t.isLt⟩

/-- The accumulating store of point `t`'s two input tiles onto `acc`. -/
abbrev step (c : Dev nD) (t : Fin cfg0.N) (acc : Vec F S1024x1024 .f32) : Vec F S1024x1024 .f32 :=
  k0_pay2 (lhsTile m c t) (rhsTile m c t) acc

/-- At the first step of a contraction the accumulator ends at the step onto the zero tile. -/
theorem acc_first (c : Dev nD) (t : Fin cfg0.N) (h0 : t.val % 4 = 0) (h1 : ¬t.val % 4 = 3) :
    (outsAt0 m c t.val t.isLt).2 = step m c t (k0_pay1 (F := F)) := by
  refine (snd_of_eq (outsAt0_A m c t h0 h1)).trans ?_
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (lhsTile m c t) (rhsTile m c t)

/-- At a middle step it ends at the step onto what the point before left. -/
theorem acc_mid (c : Dev nD) (t : Fin cfg0.N) (h0 : ¬t.val % 4 = 0) (h1 : ¬t.val % 4 = 3) :
    (outsAt0 m c t.val t.isLt).2 = step m c t (outsAt0 m c (prev t).val (prev t).isLt).2 := by
  refine (snd_of_eq (outsAt0_B m c t h0 h1)).trans ?_
  exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (lhsTile m c t) (rhsTile m c t)
    (outsAt0 m c (t.val - 1) (Nat.lt_of_le_of_lt (Nat.sub_le _ _) t.isLt)).2

/-- At the last step the output tile receives the step onto what the point before left. -/
theorem out_last (c : Dev nD) (t : Fin cfg0.N) (h0 : ¬t.val % 4 = 0) (h1 : t.val % 4 = 3) :
    (outsAt0 m c t.val t.isLt).1 = step m c t (outsAt0 m c (prev t).val (prev t).isLt).2 := by
  refine (fst_of_eq (outsAt0_C m c t h0 h1)).trans ?_
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (lhsTile m c t) (rhsTile m c t)
    (outsAt0 m c (t.val - 1) (Nat.lt_of_le_of_lt (Nat.sub_le _ _) t.isLt)).2

/-- What is written back at a last step: the four steps of its contraction, nested, over the zero tile. -/
theorem written (c : Dev nD) (t : Fin cfg0.N) (h3 : t.val % 4 = 3) :
    (outsAt0 m c t.val t.isLt).1
      = step m c t (step m c (prev t) (step m c (prev (prev t)) (step m c (prev (prev (prev t))) (k0_pay1 (F := F))))) := by
  have hN : t.val < 128 := lt_of_lt_of_eq t.isLt (show cfg0.N = 128 from N_0)
  have v1 : (prev t).val = t.val - 1 := rfl
  have v2 : (prev (prev t)).val = t.val - 1 - 1 := rfl
  have v3 : (prev (prev (prev t))).val = t.val - 1 - 1 - 1 := rfl
  refine (out_last m c t (by omega) h3).trans (congrArg (step m c t) ?_)
  refine (acc_mid m c (prev t) (by omega) (by omega)).trans (congrArg (step m c (prev t)) ?_)
  refine (acc_mid m c (prev (prev t)) (by omega) (by omega)).trans (congrArg (step m c (prev (prev t))) ?_)
  exact acc_first m c (prev (prev (prev t))) (by omega) (by omega)

end Cert.KernelIdeal.Tile

end
-- ==== Proof.Payload.lean ====
/-
  The kernel body's arithmetic at one entry, over the extended reals. The body has two stored values: the zero tile
  (the accumulator's reset), and `acc + a · bᵀ` — the accumulator plus the product of the two 1024 × 1024 input
  tiles, contracted over their second axes. At entry (p, q) the second is `acc[p, q] + ∑ k, a[p, k] * b[q, k]`.
-/
import proofs.«117263_j15942918602789_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The reset value is zero at every entry. -/
theorem pay1_apply (j : S1024x1024.Idx) : k0_pay1 (F := Ideal) j = 0 := by
  unfold k0_pay1
  rw [shapeCast_self]
  exact Ideal.ofBits_zero_f32

/-- Output axis 0 of the tile product is the left tile's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left tile's column is the contraction position. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- Output axis 1 of the tile product is the right tile's row. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right tile's column is the contraction position. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The tile product into a zero accumulator, at entry (p, q): the contraction of row `p` of the left tile with row
    `q` of the right one. -/
theorem tileProduct_apply (a b : FVec Ideal S1024x1024 .bf16) (p q : Fin 1024) :
    matmul dot_S1024x1024_S1024x1024_S1024x1024_1_1_0_0_n_n none a b (constant S1024x1024 .f32 0x00000000#32) (ix2 p q)
      = ∑ k : Fin 1024, a (ix2 p k) * b (ix2 q k) := by
  refine (Ideal.matmul_constant_zero_apply dot_S1024x1024_S1024x1024_S1024x1024_1_1_0_0_n_n none a b (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    funext fun d => Fin.ext (by
      match d with
      | ⟨0, _⟩ => exact lhs_row _ _
      | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    funext fun d => Fin.ext (by
      match d with
      | ⟨0, _⟩ => exact rhs_row _ _
      | ⟨1, _⟩ => exact (rhs_col _ _).trans hk)
  rw [el, er]

/-- The accumulating store's value at entry (p, q). -/
theorem pay2_apply (a b : FVec Ideal S1024x1024 .bf16) (acc : FVec Ideal S1024x1024 .f32) (p q : Fin 1024) :
    k0_pay2 (F := Ideal) a b acc (ix2 p q) = acc (ix2 p q) + ∑ k : Fin 1024, a (ix2 p k) * b (ix2 q k) := by
  unfold k0_pay2
  rw [shapeCast_self, shapeCast_self, shapeCast_self]
  exact congrArg (acc (ix2 p q) + ·) (tileProduct_apply a b p q)

end Cert.KernelIdeal.Tile

end
-- ==== Proof.BlockSum.lean ====
/-
  A finite sum over `Fin 4096` cut into four consecutive runs of 1024 terms, in any commutative additive
  monoid: the only algebra the tiled contraction needs. No order, no cancellation, no finiteness.
-/
import Idealize.ShloMosaic.Lib.ValueIdx

open scoped BigOperators

namespace Cert.BlockSum

/-- A sum over `Fin (a * b)` is the sum over `a` runs of the sums of `b` consecutive terms. -/
theorem sum_runs {M : Type*} [AddCommMonoid M] (a b : ℕ) (f : Fin (a * b) → M) :
    ∑ i : Fin (a * b), f i = ∑ k : Fin a, ∑ j : Fin b, f (finProdFinEquiv (k, j)) := by
  rw [← Equiv.sum_comp finProdFinEquiv f, Fintype.sum_prod_type]

/-- Position `j` of run `k`, of four runs of 1024. -/
abbrev at4 (k : Fin 4) (j : Fin 1024) : Fin 4096 := ⟨k.val * 1024 + j.val, by omega⟩

/-- The 4096 terms as four runs of 1024. -/
theorem sum_4096 {M : Type*} [AddCommMonoid M] (f : Fin 4096 → M) :
    ∑ i : Fin 4096, f i = ∑ k : Fin 4, ∑ j : Fin 1024, f (at4 k j) := by
  refine (sum_runs 4 1024 f).trans ?_
  refine Finset.sum_congr rfl fun k _ => Finset.sum_congr rfl fun j _ => congrArg f (Fin.ext ?_)
  show j.val + 1024 * k.val = k.val * 1024 + j.val
  omega

/-- The same with the four runs written out and added left to right onto a zero. -/
theorem sum_4096_chain {M : Type*} [AddCommMonoid M] (f : Fin 4096 → M) :
    ∑ i : Fin 4096, f i
      = (((0 + ∑ j : Fin 1024, f (at4 0 j)) + ∑ j : Fin 1024, f (at4 1 j)) + ∑ j : Fin 1024, f (at4 2 j))
          + ∑ j : Fin 1024, f (at4 3 j) := by
  rw [sum_4096, Fin.sum_univ_four, zero_add]

end Cert.BlockSum
-- ==== Proof.Spec.lean ====
/-
  The specification: the whole-array function both programs compute. For `A` of shape [8192, 4096] and `B` of shape
  [4096, 4096], `mm A B` at (r, o) is the contraction `∑ k, A[r, k] * B[o, k]` over the 4096 shared columns — `A`
  times the transpose of `B`. The kernel forms it tile by tile: the entry at row `p` of row block `bi` and column `q` of
  column block `bj` is built by adding, onto a zero, the four partial contractions over the column runs
  `[0, 1024)`, `[1024, 2048)`, `[2048, 3072)`, `[3072, 4096)`. Over the extended reals that left-to-right chain IS the
  whole contraction: only associativity and commutativity of the sum are used.
-/
import Idealize.ShloMosaic.Lib.ValueIdx
import proofs.«117263_j15942918602789_1_alg».proof.Proof.BlockSum

noncomputable section

open scoped BigOperators

namespace Cert.TiledMatmul

open Idealize.ShloMosaic Idealize.ShloMosaic.ValueIdx Cert.BlockSum

/-- The left operand's and the result's shape, and the right operand's. -/
abbrev SA : Shape := ⟨2, ![8192, 4096]⟩
abbrev SB : Shape := ⟨2, ![4096, 4096]⟩

/-- `A` times the transpose of `B`. -/
def mm (A : SA.Idx → EReal) (B : SB.Idx → EReal) : SA.Idx → EReal :=
  fun i => ∑ k : Fin 4096, A (ix2 (n0 := 8192) (i 0) k) * B (ix2 (n0 := 4096) (i 1) k)

theorem mm_apply (A : SA.Idx → EReal) (B : SB.Idx → EReal) (r : Fin 8192) (o : Fin 4096) :
    mm A B (ix2 r o) = ∑ k : Fin 4096, A (ix2 r k) * B (ix2 o k) := rfl

/-- Row `p` of row block `bi`, of eight blocks of 1024 rows. -/
abbrev rowAt (bi : Fin 8) (p : Fin 1024) : Fin 8192 := ⟨bi.val * 1024 + p.val, by omega⟩

/-- The partial contraction over column run `kb`, for the entry (p, q) of tile (bi, bj). -/
def part (A : SA.Idx → EReal) (B : SB.Idx → EReal) (bi : Fin 8) (bj : Fin 4) (p q : Fin 1024) (kb : Fin 4) : EReal :=
  ∑ j : Fin 1024, A (ix2 (rowAt bi p) (at4 kb j)) * B (ix2 (at4 bj q) (at4 kb j))

/-- An entry of the product is the four partial contractions added left to right onto zero. -/
theorem mm_tile (A : SA.Idx → EReal) (B : SB.Idx → EReal) (bi : Fin 8) (bj : Fin 4) (p q : Fin 1024) :
    mm A B (ix2 (rowAt bi p) (at4 bj q))
      = (((0 + part A B bi bj p q 0) + part A B bi bj p q 1) + part A B bi bj p q 2) + part A B bi bj p q 3 := by
  rw [mm_apply]
  exact sum_4096_chain fun k => A (ix2 (rowAt bi p) k) * B (ix2 (at4 bj q) k)

end Cert.TiledMatmul

end
-- ==== Proof.Written.lean ====
/-
  The result array of the tiled product, over the extended reals. At a last step `t = 4u + 3` the tile written back
  holds, at entry (p, q), the chain `(((0 + s₀) + s₁) + s₂) + s₃` where `sₖ` is the contraction of row `p` of the left
  tile with row `q` of the right tile at the point `4u + k`. Those tiles are the rows `(t / 16) · 1024 + p` of the left
  operand and `(t / 4 % 4) · 1024 + q` of the right one, restricted to the column run `k`: so `sₖ` is the partial
  contraction over run `k`, and the chain is the whole contraction — the entry of `A · Bᵀ` where the output tile sits.
  Every entry of the [8192, 4096] result lies in the tile of exactly such a point, so the array ends at `A · Bᵀ`.
-/
import proofs.«117263_j15942918602789_1_alg».proof.Proof.Accum
import proofs.«117263_j15942918602789_1_alg».proof.Proof.Blocks
import proofs.«117263_j15942918602789_1_alg».proof.Proof.Payload
import proofs.«117263_j15942918602789_1_alg».proof.Proof.Spec

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx
open Cert.TiledMatmul Cert.BlockSum

variable (m : (ℓ : Loc nD τ sig) → Buf (Elt Ideal) ℓ)

/-- The two operands as the region finds them. -/
abbrev lhsArr (c : Dev nD) : SA.Idx → EReal := V m c main_v27
abbrev rhsArr (c : Dev nD) : SB.Idx → EReal := V m c main_v28

/-- The tile product of point `s` at entry (p, q) is the partial contraction over the column run of `s`. -/
theorem stepSum (c : Dev nD) (s : Fin cfg0.N) (p q : Fin 1024) (bi : Fin 8) (bj kb : Fin 4)
    (hbi : bi.val = s.val / 16) (hbj : bj.val = s.val / 4 % 4) (hkb : kb.val = s.val % 4) :
    ∑ k : Fin 1024, lhsTile m c s (ix2 p k) * rhsTile m c s (ix2 q k)
      = part (lhsArr m c) (rhsArr m c) bi bj p q kb := by
  unfold part
  refine Finset.sum_congr rfl fun k _ => ?_
  exact congrArg₂ (· * ·)
    (lhsTile_apply m c s p k (rowAt bi p) (at4 kb k) (by show bi.val * 1024 + p.val = _; omega) (by show kb.val * 1024 + k.val = _; omega))
    (rhsTile_apply m c s q k (at4 bj q) (at4 kb k) (by show bj.val * 1024 + q.val = _; omega) (by show kb.val * 1024 + k.val = _; omega))

/-- The tile written back at a last step, at entry (p, q): the entry of the whole product where the tile sits. -/
theorem written_apply (c : Dev nD) (t : Fin cfg0.N) (h3 : t.val % 4 = 3) (p q : Fin 1024) (bi : Fin 8) (bj : Fin 4)
    (hbi : bi.val = t.val / 16) (hbj : bj.val = t.val / 4 % 4) :
    (outsAt0 m c t.val t.isLt).1 (ix2 p q) = mm (lhsArr m c) (rhsArr m c) (ix2 (rowAt bi p) (at4 bj q)) := by
  have hN : t.val < 128 := lt_of_lt_of_eq t.isLt (show cfg0.N = 128 from N_0)
  have v1 : (prev t).val = t.val - 1 := rfl
  have v2 : (prev (prev t)).val = t.val - 1 - 1 := rfl
  have v3 : (prev (prev (prev t))).val = t.val - 1 - 1 - 1 := rfl
  rw [mm_tile]
  refine (congrFun (written m c t h3) (ix2 p q)).trans ?_
  refine (pay2_apply (lhsTile m c t) (rhsTile m c t) _ p q).trans ?_
  refine congrArg₂ (· + ·) ?_ (stepSum m c t p q bi bj 3 hbi hbj (by show 3 = _; omega))
  refine (pay2_apply (lhsTile m c (prev t)) (rhsTile m c (prev t)) _ p q).trans ?_
  refine congrArg₂ (· + ·) ?_ (stepSum m c (prev t) p q bi bj 2 (by omega) (by omega) (by show 2 = _; omega))
  refine (pay2_apply (lhsTile m c (prev (prev t))) (rhsTile m c (prev (prev t))) _ p q).trans ?_
  refine congrArg₂ (· + ·) ?_ (stepSum m c (prev (prev t)) p q bi bj 1 (by omega) (by omega) (by show 1 = _; omega))
  refine (pay2_apply (lhsTile m c (prev (prev (prev t)))) (rhsTile m c (prev (prev (prev t)))) _ p q).trans ?_
  exact congrArg₂ (· + ·) (pay1_apply _) (stepSum m c (prev (prev (prev t))) p q bi bj 0 (by omega) (by omega) (by show 0 = _; omega))

/-- What a last step writes back is its tile of the whole product. -/
theorem flushed_eq (c : Dev nD) (t : Fin cfg0.N) (hf : (cfg0.win 2).flush t = true) :
    (dats m 0 c).flushed 2 t = ((cfg0.win 2).blk t).view.read (Elt Ideal) (mm (lhsArr m c) (rhsArr m c)) := by
  have h3 : t.val % 4 = 3 := (flush0_2 t).mp hf
  have hN : t.val < 128 := lt_of_lt_of_eq t.isLt (show cfg0.N = 128 from N_0)
  show (cfg0.win 2).cut (grid0.coords t) ((dats m 0 c).after 2 t) = _
  rw [after0_2]
  refine funext fun (j : S1024x1024.Idx) => ?_
  obtain ⟨p, q, rfl⟩ : ∃ (p q : Fin 1024), j = ix2 p q := ⟨j 0, j 1, eq_ix2 j⟩
  show (outsAt0 m c t.val t.isLt).1 (ix2 p q) = mm (lhsArr m c) (rhsArr m c) (((cfg0.win 2).blk t).view.emb (ix2 p q))
  rw [outTile_emb t p q (rowAt ⟨t.val / 16, by omega⟩ p) (at4 ⟨t.val / 4 % 4, by omega⟩ q) rfl rfl]
  exact written_apply m c t h3 p q ⟨t.val / 16, by omega⟩ ⟨t.val / 4 % 4, by omega⟩ rfl rfl

/-- The last step of the tile that holds a given entry of the result. -/
abbrev pointOf (i : S8192x4096.Idx) : Fin cfg0.N :=
  ⟨(i 0).val / 1024 * 16 + (i 1).val / 1024 * 4 + 3, by
    have h0 : (i 0).val < 8192 := (i 0).isLt
    have h1 : (i 1).val < 4096 := (i 1).isLt
    show _ < grid0.N
    rw [N_0]; omega⟩

/-- An entry is in point `t`'s output tile iff each coordinate is in the tile's range on its axis. -/
theorem mem_tile (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v29).slice (win0_2.rect t)).set ↔ _
  rw [View.set_slice_whole, Rect.mem_set_unit]
  exact Iff.rfl

/-- Every entry of the result is in the output tile of a last step. -/
theorem covered (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hv : (pointOf i).val = (i 0).val / 1024 * 16 + (i 1).val / 1024 * 4 + 3 := rfl
  obtain ⟨-, -, -, -, e0, e1⟩ := idx_facts (pointOf i)
  refine ⟨pointOf i, (flush0_2 (pointOf i)).mpr (by omega), ?_⟩
  rw [mem_tile]
  intro a
  match a with
  | ⟨0, _⟩ => show win0_2.index (pointOf i) (0 : Fin 2) * 1024 ≤ (i 0).val ∧ (i 0).val < win0_2.index (pointOf i) (0 : Fin 2) * 1024 + 1024; omega
  | ⟨1, _⟩ => show win0_2.index (pointOf i) (1 : Fin 2) * 1024 ≤ (i 1).val ∧ (i 1).val < win0_2.index (pointOf i) (1 : Fin 2) * 1024 + 1024; omega

/-- The result array of the region ends at `A · Bᵀ` of the two operands as the region finds them. -/
theorem final (c : Dev nD) : (dats m 0 c).arrAt 2 cfg0.N = mm (lhsArr m c) (rhsArr m c) :=
  (dats m 0 c).arrAt_eq_of_cover 2 (mm (lhsArr m c) (rhsArr m c)) (flushed_eq m c) covered

end Cert.KernelIdeal.Tile

end
-- ==== Proof.HostSide.lean ====
/-
  The host lines around the tiled product. Before it: the left operand is the input `x` with its two leading axes
  merged, [4, 2048, 4096] → [8192, 4096], rounded to bf16; the right operand is the dequantized weight — for each output
  row and each group of eight input columns the sum of two codebook rows chosen by the row's codes, the groups laid side
  by side into a [4096, 4096] matrix, each row multiplied by the row's scale — rounded to bf16. After it: the product's
  leading axis is split back, [8192, 4096] → [4, 2048, 4096]. The weight is carried as ONE function of the three
  arguments it depends on, never opened: the reference computes the same function by the same operations.
-/
import proofs.«117263_j15942918602789_1_alg».proof.Proof.Gen.KernelIdeal.Frame
import Idealize.ShloMosaic.Lib.StableHlo.Run
import Idealize.ShloMosaic.Lib.Pipeline.Value

noncomputable section

namespace Cert.KernelIdeal.Tile

open Cert.KernelIdeal Cert.KernelIdeal.Gen Idealize.ShloMosaic Idealize.ShloMosaic.TcCoe Idealize.SL.Sem Idealize.ShloMosaic.StableHlo

variable {F : FTy → Type} [FloatOps F]

/-- The dequantized weight as a function of the codebooks `x1`, the row scales `x2` and the codes `x3`. -/
def weight (x1 : (⟨S2x256x8, .f32⟩ : BufTy).Contents (Elt F)) (x2 : (⟨S4096x1, .f32⟩ : BufTy).Contents (Elt F))
    (x3 : (⟨S4096x512x2, .i32⟩ : BufTy).Contents (Elt F)) : (⟨S4096x4096, .f32⟩ : BufTy).Contents (Elt F) :=
  (mulf (shapeCast _ (addf (Host.gather gather_S256x8_S4096x512x1_S4096x512x8_2_0_n_n_0_2_18 (shapeCast _ (extractStridedSlice S1x256x8 ![0, 0, 0] x1 slices_S2x256x8_S1x256x8_0_0_0) shapeCasts_S1x256x8_S256x8) (broadcastInDim S4096x512x1 ![0, 1] bcast_S4096x512_S4096x512x1_0_1 (select (cmpi .slt (shapeCast _ (extractStridedSlice S4096x512x1 ![0, 0, 0] x3 slices_S4096x512x2_S4096x512x1_0_0_0) shapeCasts_S4096x512x1_S4096x512) (broadcastInDim S4096x512 ![] bcast_S_S4096x512 (constantI S_ 32 0#32))) (addi (shapeCast _ (extractStridedSlice S4096x512x1 ![0, 0, 0] x3 slices_S4096x512x2_S4096x512x1_0_0_0) shapeCasts_S4096x512x1_S4096x512) (broadcastInDim S4096x512 ![] bcast_S_S4096x512 (constantI S_ 32 256#32))) (shapeCast _ (extractStridedSlice S4096x512x1 ![0, 0, 0] x3 slices_S4096x512x2_S4096x512x1_0_0_0) shapeCasts_S4096x512x1_S4096x512)))) (Host.gather gather_S256x8_S4096x512x1_S4096x512x8_2_0_n_n_0_2_18 (shapeCast _ (extractStridedSlice S1x256x8 ![1, 0, 0] x1 slices_S2x256x8_S1x256x8_1_0_0) shapeCasts_S1x256x8_S256x8) (broadcastInDim S4096x512x1 ![0, 1] bcast_S4096x512_S4096x512x1_0_1 (select (cmpi .slt (shapeCast _ (extractStridedSlice S4096x512x1 ![0, 0, 1] x3 slices_S4096x512x2_S4096x512x1_0_0_1) shapeCasts_S4096x512x1_S4096x512) (broadcastInDim S4096x512 ![] bcast_S_S4096x512 (constantI S_ 32 0#32))) (addi (shapeCast _ (extractStridedSlice S4096x512x1 ![0, 0, 1] x3 slices_S4096x512x2_S4096x512x1_0_0_1) shapeCasts_S4096x512x1_S4096x512) (broadcastInDim S4096x512 ![] bcast_S_S4096x512 (constantI S_ 32 256#32))) (shapeCast _ (extractStridedSlice S4096x512x1 ![0, 0, 1] x3 slices_S4096x512x2_S4096x512x1_0_0_1) shapeCasts_S4096x512x1_S4096x512))))) shapeCasts_S4096x512x8_S4096x4096) (broadcastInDim S4096x4096 ![0, 1] bcast_S4096x1_S4096x4096_0_1 x2))

variable (m : (ℓ : Loc nD τ sig) → Buf (Elt F) ℓ)

/-- The left operand as the region finds it: `x` reshaped to [8192, 4096] and rounded. -/
theorem V_lhs (c : Dev nD) :
    V m c main_v27 = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v27) = _
  after_results_simp <;> rfl

/-- The right operand as the region finds it: the dequantized weight, rounded. -/
theorem V_rhs (c : Dev nD) :
    V m c main_v28 = truncf .bf16 (weight (m ((c : Thread nD τ).loc main_arg1)) (m ((c : Thread nD τ).loc main_arg2)) (m ((c : Thread nD τ).loc main_arg3))) bitsLt_bf16_f32 := by
  show StableHlo.after hostOps0 (fun b => m (c, b)) (Proc.devRef .tc main_v28) = _
  after_results_simp <;> rfl

/-- The program's result: the region's result array with its leading axis split. -/
theorem tail_eq (c : Dev nD) :
    Pipeline.afterTail₀ cfgs (dats m) 0 (V0 m) [hostOps1] c main_v30
      = shapeCast S4x2048x4096 ((dats m 0 c).arrAt 2 cfg0.N) shapeCasts_S8192x4096_S4x2048x4096 := by
  unfold Pipeline.afterTail₀
  show StableHlo.after hostOps1 _ (Proc.devRef .tc main_v30) = _
  after_results
  have e := Pipeline.withArrays_arr spec0 launch0.win.arr_inj c (V0 m c) (fun w => (dats m 0 c).arrAt w cfg0.N) 2
  refine Eq.trans ?_ (congrArg (fun X => shapeCast S4x2048x4096 X shapeCasts_S8192x4096_S4x2048x4096) e)
  rfl

end Cert.KernelIdeal.Tile

end
-- ==== Proof.KernelRun.lean ====
/-
  The kernel's run over the extended reals, read as values: the program's result is ONE function of its four
  arguments — `x` with its leading axes merged, times the transpose of the dequantized weight, with the leading axis
  split back — and the arguments end unchanged. (The two roundings to bf16 are the identity on extended reals; they are
  kept in the term and dropped where the two programs are compared.)
-/
import proofs.«117263_j15942918602789_1_alg».proof.Proof.Written
import proofs.«117263_j15942918602789_1_alg».proof.Proof.HostSide

noncomputable section

namespace Cert.KernelIdeal.Tile

open Cert.KernelIdeal Cert.KernelIdeal.Gen Idealize.ShloMosaic Idealize.ShloMosaic.TcCoe Idealize.SL.Sem
open Cert.TiledMatmul

/-- The left operand of the product as a function of `x`: its leading axes merged, rounded. -/
abbrev lhsOf (x0 : (⟨S4x2048x4096, .f32⟩ : BufTy).Contents (Elt Ideal)) : SA.Idx → EReal :=
  (truncf .bf16 (shapeCast S8192x4096 x0 shapeCasts_S4x2048x4096_S8192x4096) bitsLt_bf16_f32 : FVec Ideal S8192x4096 .bf16)

/-- The right operand as a function of the codebooks, the row scales and the codes: the dequantized weight, rounded. -/
abbrev rhsOf (x1 : (⟨S2x256x8, .f32⟩ : BufTy).Contents (Elt Ideal)) (x2 : (⟨S4096x1, .f32⟩ : BufTy).Contents (Elt Ideal))
    (x3 : (⟨S4096x512x2, .i32⟩ : BufTy).Contents (Elt Ideal)) : SB.Idx → EReal :=
  (truncf .bf16 (weight (F := Ideal) x1 x2 x3) bitsLt_bf16_f32 : FVec Ideal S4096x4096 .bf16)

/-- The program's result as a function of `x`, the codebooks, the row scales and the codes. -/
def result (x0 : (⟨S4x2048x4096, .f32⟩ : BufTy).Contents (Elt Ideal)) (x1 : (⟨S2x256x8, .f32⟩ : BufTy).Contents (Elt Ideal))
    (x2 : (⟨S4096x1, .f32⟩ : BufTy).Contents (Elt Ideal)) (x3 : (⟨S4096x512x2, .i32⟩ : BufTy).Contents (Elt Ideal)) :
    (⟨S4x2048x4096, .f32⟩ : BufTy).Contents (Elt Ideal) :=
  shapeCast S4x2048x4096 (mm (lhsOf x0) (rhsOf x1 x2 x3)) shapeCasts_S8192x4096_S4x2048x4096

variable (m : (ℓ : Loc nD τ sig) → Buf (Elt Ideal) ℓ) (ρ : Dev nD → PrngReg)

/-- The region's result array, in the arguments. -/
theorem final_args (c : Dev nD) : (dats m 0 c).arrAt 2 cfg0.N
    = mm (lhsOf (m ((c.tc : Thread nD τ).loc main_arg0))) (rhsOf (m ((c.tc : Thread nD τ).loc main_arg1)) (m ((c.tc : Thread nD τ).loc main_arg2)) (m ((c.tc : Thread nD τ).loc main_arg3))) :=
  (final m c).trans (congrArg₂ mm (V_lhs m c) (V_rhs m c))

/-- Every weakly fair execution terminates with the result at `result` of the arguments, the arguments unchanged. -/
theorem run : θ_run defs (onTc (τ := τ) (main (F := Ideal))) ⟨m, fun _ => 0, ρ⟩ fun r => ∀ c : Dev nD,
      r.2.mem ((c.tc : Thread nD τ).loc main_v30) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans
        ((tail_eq m c).trans (congrArg (fun X => shapeCast S4x2048x4096 X shapeCasts_S8192x4096_S4x2048x4096) (final_args m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tile

end
-- ==== Proof.RefSide.lean ====
/-
  The reference at an entry. Its result at (b, t, o) is the contraction over the 4096 input features of `x[b, t, k]`
  with the dequantized weight's row `o` — the weight being the reference's own stage of the same name, a function of
  the codebooks, the row scales and the codes.
-/
import proofs.«117263_j15942918602789_1_alg».proof.Proof.Gen.ReferenceIdeal.Read

noncomputable section

open scoped BigOperators

namespace Cert.ReferenceIdeal.RefSide

open Cert.ReferenceIdeal Cert.ReferenceIdeal.Gen Cert.ReferenceIdeal.Read Idealize.ShloMosaic Idealize.ShloMosaic.ValueIdx

theorem ref_apply (x0 : (⟨S4x2048x4096, .f32⟩ : BufTy).Contents (Elt Ideal)) (x1 : (⟨S2x256x8, .f32⟩ : BufTy).Contents (Elt Ideal))
    (x2 : (⟨S4096x1, .f32⟩ : BufTy).Contents (Elt Ideal)) (x3 : (⟨S4096x512x2, .i32⟩ : BufTy).Contents (Elt Ideal))
    (b : Fin 4) (t : Fin 2048) (o : Fin 4096) :
    val_main_v26 (F := Ideal) x0 x1 x2 x3 (ix3 b t o)
      = ∑ k : Fin 4096, x0 (ix3 b t k) * val_main_v25 (F := Ideal) x1 x2 x3 (ix2 o k) := by
  rw [val_main_v26_apply]
  refine Finset.sum_congr rfl fun k _ => ?_
  have el : lidx_main_v26 (ix3 b t o) k = ix3 b t k :=
    funext fun a => Fin.ext (by match a with | ⟨0, _⟩ => rfl | ⟨1, _⟩ => rfl | ⟨2, _⟩ => rfl)
  have er : ridx_main_v26 (ix3 b t o) k = ix2 o k :=
    funext fun a => Fin.ext (by match a with | ⟨0, _⟩ => rfl | ⟨1, _⟩ => rfl)
  rw [el, er]

end Cert.ReferenceIdeal.RefSide

end
-- ==== Proof.Bridge.lean ====
/-
  The two programs compute one function. The kernel's result at (b, t, o) is the entry (b · 2048 + t, o) of the product
  of the merged `x` with the transposed weight: `∑ k, x[b, t, k] * w[o, k]`, the merged array's row `b · 2048 + t`
  being `x`'s row (b, t) and the two roundings to bf16 the identity on extended reals. The reference's result at
  (b, t, o) is the same sum. The weight `w` is the same function of the codebooks, the row scales and the codes in both
  programs: the same host operations in the same order.
-/
import proofs.«117263_j15942918602789_1_alg».proof.Proof.KernelRun
import proofs.«117263_j15942918602789_1_alg».proof.Proof.RefSide
import Idealize.ShloMosaic.Lib.Pipeline.Value
import Idealize.ShloMosaic.Lib.ValueIdx

noncomputable section

open scoped BigOperators

namespace Cert.Bridge

open Idealize.ShloMosaic Idealize.ShloMosaic.ValueIdx Cert.TiledMatmul

/-- The dequantized weight of the kernel's program is the reference's. -/
theorem weight_eq (x1 : (⟨Cert.KernelIdeal.S2x256x8, .f32⟩ : BufTy).Contents (Elt Ideal))
    (x2 : (⟨Cert.KernelIdeal.S4096x1, .f32⟩ : BufTy).Contents (Elt Ideal)) (x3 : (⟨Cert.KernelIdeal.S4096x512x2, .i32⟩ : BufTy).Contents (Elt Ideal)) :
    Cert.KernelIdeal.Tile.weight (F := Ideal) x1 x2 x3 = Cert.ReferenceIdeal.Read.val_main_v25 (F := Ideal) x1 x2 x3 := rfl

/-- Row `t` of batch `b`, in the merged [8192, 4096] array. -/
abbrev mergedRow (b : Fin 4) (t : Fin 2048) : Fin 8192 := ⟨b.val * 2048 + t.val, by omega⟩

/-- The kernel's result function is the reference's. -/
theorem result_eq (x0 : (⟨Cert.KernelIdeal.S4x2048x4096, .f32⟩ : BufTy).Contents (Elt Ideal)) (x1 : (⟨Cert.KernelIdeal.S2x256x8, .f32⟩ : BufTy).Contents (Elt Ideal))
    (x2 : (⟨Cert.KernelIdeal.S4096x1, .f32⟩ : BufTy).Contents (Elt Ideal)) (x3 : (⟨Cert.KernelIdeal.S4096x512x2, .i32⟩ : BufTy).Contents (Elt Ideal)) :
    Cert.KernelIdeal.Tile.result x0 x1 x2 x3 = Cert.ReferenceIdeal.Read.val_main_v26 (F := Ideal) x0 x1 x2 x3 := by
  funext i
  obtain ⟨b, t, o, rfl⟩ : ∃ (b : Fin 4) (t : Fin 2048) (o : Fin 4096), i = ix3 b t o := ⟨i 0, i 1, i 2, eq_ix3 i⟩
  rw [Cert.ReferenceIdeal.RefSide.ref_apply]
  unfold Cert.KernelIdeal.Tile.result
  refine (shapeCast_apply _ _ (ix3 b t o) (ix2 (mergedRow b t) o) (by
    rewrite [Shape.rowMajor_val_two, Shape.rowMajor_val_three]; rfl)).trans ?_
  refine (mm_apply _ _ (mergedRow b t) o).trans ?_
  refine Finset.sum_congr rfl fun k _ => congrArg₂ (· * ·) ?_ ?_
  · show shapeCast Cert.KernelIdeal.S8192x4096 x0 _ (ix2 (mergedRow b t) k) = x0 (ix3 b t k)
    exact shapeCast_apply x0 _ (ix2 (mergedRow b t) k) (ix3 b t k) (by
      rewrite [Shape.rowMajor_val_three, Shape.rowMajor_val_two]; rfl)
  · exact congrFun (weight_eq x1 x2 x3) (ix2 o k)

end Cert.Bridge

end
-- ==== Proof.lean ====
/-
  An additive-codebook linear layer: `y[b, t, o] = ∑ k, x[b, t, k] * w[o, k]`, where the weight `w` is rebuilt from
  two codebooks (for each output row and each group of eight input columns, the sum of two codebook rows picked by the
  row's codes) and scaled row by row. The kernel's program computes `w` on the host, rounds `x` (with its two
  leading axes merged) and `w` to bf16, and multiplies them tile by tile: a grid of 8 × 4 output tiles of 1024 × 1024,
  each accumulated over four steps along the contracted axis in a scratch tile that is zeroed at the first step and
  copied to the output at the last. The reference computes the same `w` by the same host operations and contracts
  `x` with it in one `dot_general`.
  Over the extended reals the roundings are the identity and a tile's four partial contractions, added left to right onto
  zero, are the whole contraction (a finite sum regrouped: associativity and commutativity only, so the precondition is
  never opened). The three frame claims are the generated frame theorems, and the idealized kernel is the kernel's own
  operations read over the extended reals, so there is nothing to preserve.
-/
import proofs.«117263_j15942918602789_1_alg».proof.Defs
import proofs.«117263_j15942918602789_1_alg».proof.Proof.Gen.Kernel
import proofs.«117263_j15942918602789_1_alg».proof.Proof.Gen.Kernel.Frame
import proofs.«117263_j15942918602789_1_alg».proof.Proof.Gen.KernelIdeal
import proofs.«117263_j15942918602789_1_alg».proof.Proof.Gen.KernelIdeal.Frame
import proofs.«117263_j15942918602789_1_alg».proof.Proof.Gen.ReferenceIdeal
import proofs.«117263_j15942918602789_1_alg».proof.Proof.Gen.ReferenceIdeal.Run
import proofs.«117263_j15942918602789_1_alg».proof.Proof.Gen.ReferenceIdeal.Read
import proofs.«117263_j15942918602789_1_alg».proof.Proof.Gen.Pre_finite_inputs
import proofs.«117263_j15942918602789_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's program ends at its result function of the arguments, the reference at its
    own of arguments that agree; the two functions are one. -/
theorem algebraic : Cert.algebraic_KernelIdeal_ReferenceIdeal := by
  intro m ρ m' ρ' _ hagree
  refine ⟨fun c => Cert.KernelIdeal.Tile.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq _ _ _ _).trans ?_
  rw [(hagree c).1, (hagree c).2.1, (hagree c).2.2.1, (hagree c).2.2.2]
  exact (Cert.Bridge.result_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
